-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x1 : Shape := ⟨2, ![8192, 1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192x1 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1, .i32⟩
  | .hbm, ⟨2, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x1, .i32⟩
  | .local _ .vmem, ⟨3, _⟩ => ⟨S256x1, .i32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  iota_S256x4096_d1_w32 : S256x4096.Iotas .tc 32 [1]
  broadcasts_S256x1_S256x4096 : S256x1.Broadcasts S256x4096
  reduces_S256x4096_S256 : S256x4096.Reduces [1] S256
  shapeCasts_S256_S256x1 : S256.ShapeCasts S256x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x1 : Shape := ⟨2, ![8192, 1]⟩
abbrev S4096 : Shape := ⟨1, ![4096]⟩
abbrev S1x4096 : Shape := ⟨2, ![1, 4096]⟩
abbrev S_ : Shape := ⟨0, ![]⟩
abbrev S8192 : Shape := ⟨1, ![8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1, .i32⟩
  | .hbm, ⟨2, _⟩ => ⟨S4096, .i32⟩
  | .hbm, ⟨3, _⟩ => ⟨S1x4096, .i32⟩
  | .hbm, ⟨4, _⟩ => ⟨S8192x4096, .i32⟩
  | .hbm, ⟨5, _⟩ => ⟨S8192x4096, .i32⟩
  | .hbm, ⟨6, _⟩ => ⟨S8192x4096, .i1⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_call0_v0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)

variable [Facts₀]

class Facts : Prop extends Facts₀ where

variable [Facts]
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibMaskedSoftmax.lean ====
/-
  The masked softmax of one row, on the extended reals.

  A row `x` of `L` entries comes with one bit per entry; the entries whose bit is 1 are the selected ones. The row's
  maximum is taken over the selected entries (it is -∞ when none is selected), a selected entry gets the weight
  `exp (x l - maximum)` and every other entry the weight 0, and the result is each weight divided by the sum of all the
  weights of the row.

  Beside the definition, the facts that let two different spellings of it meet. A program may give an unselected entry
  its zero weight either by choosing between the exponential and 0 on the bit, or by multiplying the exponential by the
  bit read as the number 0 or 1: on the extended reals the two agree for EVERY value of the exponential, +∞ included,
  because there `0 · (+∞) = 0`. The bit read as a number is positive exactly when the bit is 1. A maximum folded from -∞
  over all the entries of a row is the supremum of the row.
-/
import Idealize.ShloMosaic.PureOps.Ideal.Laws

noncomputable section

namespace Cert.MaskedSoftmax

open Idealize.ShloMosaic

variable {L : Nat}

/-- The largest selected entry of the row; -∞ when no entry is selected. -/
def rowMax (b : Fin L → BitVec 1) (x : Fin L → EReal) : EReal := ⨆ l, if b l = 1#1 then x l else ⊥

/-- An entry's weight: `exp` of its distance below the row's maximum when selected, 0 otherwise. -/
def weight (b : Fin L → BitVec 1) (x : Fin L → EReal) (l : Fin L) : EReal :=
  if b l = 1#1 then Ideal.exp (x l - rowMax b x) else 0

/-- The masked softmax: an entry's weight over the sum of the row's weights. -/
def softmax (b : Fin L → BitVec 1) (x : Fin L → EReal) (l : Fin L) : EReal :=
  Ideal.div (weight b x l) (∑ k, weight b x k)

/-- A bit converted to a float, read unsigned, is the number 1 or 0. -/
theorem bitNum (c : BitVec 1) :
    FloatOps.uitofp (F := Ideal) .f32 c = if c = 1#1 then (1 : EReal) else 0 := by
  rcases BitVec.eq_zero_or_eq_one c with rfl | rfl
  · show (((0#1 : BitVec 1).toNat : ℝ) : EReal) = _
    simp
  · show (((1#1 : BitVec 1).toNat : ℝ) : EReal) = _
    simp

/-- That number is greater than the zero word's value exactly when the bit is 1: the comparison gives the bit back. -/
theorem bitNum_pos (c : BitVec 1) :
    FloatOps.cmpf (F := Ideal) (φ := .f32) .ogt (FloatOps.uitofp (F := Ideal) .f32 c) (Ideal.ofBits .f32 0x00000000#32) = c := by
  rw [Ideal.ofBits_zero_f32, bitNum]
  rcases BitVec.eq_zero_or_eq_one c with rfl | rfl
  · show Ideal.cmp .ogt _ _ = _
    simp [Ideal.cmp]
  · show Ideal.cmp .ogt _ _ = _
    simp [Ideal.cmp]

/-- Multiplying by the bit's number keeps the value on the bit 1 and gives 0 on the bit 0, whatever the value. -/
theorem mul_bitNum (e : EReal) (c : BitVec 1) :
    e * (if c = 1#1 then (1 : EReal) else 0) = if c = 1#1 then e else 0 := by
  split <;> simp

theorem bitNum_mul (e : EReal) (c : BitVec 1) :
    (if c = 1#1 then (1 : EReal) else 0) * e = if c = 1#1 then e else 0 := by
  split <;> simp

/-- A maximum folded from -∞ over every entry is the supremum of the entries. -/
theorem fold_max_bot (f : Fin L → EReal) : (Finset.univ : Finset (Fin L)).fold max ⊥ f = ⨆ l, f l := by
  rw [← Finset.sup_univ_eq_iSup]
  rfl

/-- The word `0xFF800000` is -∞. -/
theorem negInf_word : Ideal.ofBits .f32 0xFF800000#32 = ⊥ := by
  simp [Ideal.ofBits, Ideal.ieee]

end Cert.MaskedSoftmax

end
-- ==== Proof.Spec.lean ====
/-
  What both programs compute, as one function of the two argument arrays.

  `X` is an 8192 × 4096 array of extended reals and `N` a column of 8192 length words. In row `r` the lane `l` is selected
  when `l`, written as a 32-bit word, is below the row's length word as signed integers; the result at `(r, l)` is the
  masked softmax of row `r` of `X` under that selection, at lane `l`. A row whose length word is not positive selects
  nothing; a length word above 4096 selects every lane.
-/
import proofs.«166033_j81604378624394_2_alg».proof.Proof.LibMaskedSoftmax
import Idealize.ShloMosaic.Lib.ValueIdx

noncomputable section

namespace Cert.Spec

open Idealize.ShloMosaic Idealize.ShloMosaic.ValueIdx Cert.MaskedSoftmax

/-- The selection bit of lane `l` in a row whose length word is `n`: the signed comparison `l < n` on 32-bit words. -/
def bit (n : BitVec 32) (l : Fin 4096) : BitVec 1 := IntOp.cmpi .slt (BitVec.ofNat 32 l.val) n

/-- The shapes of the two arrays. -/
abbrev SX : Shape := ⟨2, ![8192, 4096]⟩
abbrev SN : Shape := ⟨2, ![8192, 1]⟩

/-- The result at row `r`, lane `l`: row `r`'s masked softmax at `l`. -/
def entry (X : SX.Idx → EReal) (N : SN.Idx → BitVec 32) (r : Fin 8192) (l : Fin 4096) : EReal :=
  softmax (bit (N (ix2 r (0 : Fin 1)))) (fun k => X (ix2 r k)) l

/-- The whole result array. -/
def G (X : SX.Idx → EReal) (N : SN.Idx → BitVec 32) : SX.Idx → EReal :=
  fun i => entry X N ⟨(i 0).val, idx2_lt0 i⟩ ⟨(i 1).val, idx2_lt1 i⟩

theorem G_ix2 (X : SX.Idx → EReal) (N : SN.Idx → BitVec 32) (r : Fin 8192) (l : Fin 4096) :
    G X N (ix2 r l) = entry X N r l := rfl

end Cert.Spec

end
-- ==== Proof.KernelRow.lean ====
/-
  The kernel's body on one block of 256 rows, entry by entry.

  The body loads a 256 × 4096 block of `X` and the 256 × 1 block of length words beside it. It forms the selection bits
  (lane number below the row's length word), the row maxima of the selected entries as a column (a lane reduction from
  -∞, viewed as a column and repeated along the row), the weights `exp (x - maximum)` on selected entries and 0 elsewhere,
  the row sums of the weights as a column, and stores weight / row sum. Read at the entry `(p, l)` of the block this is the
  masked softmax of row `p` of the block at lane `l`: an entry depends on its own row of the block and on that row's
  length word, on nothing else.
-/
import proofs.«166033_j81604378624394_2_alg».proof.Proof.Gen.KernelIdeal.Skeleton
import proofs.«166033_j81604378624394_2_alg».proof.Proof.LibLayout
import proofs.«166033_j81604378624394_2_alg».proof.Proof.Spec
import Idealize.ShloMosaic.Lib.Pipeline.Value
import Idealize.ShloMosaic.PureOps.Ideal.Laws

noncomputable section

namespace Cert.KernelIdeal.RowValue

open Cert.KernelIdeal Cert.KernelIdeal.Gen
open Idealize.ShloMosaic Idealize.ShloMosaic.ValueIdx Cert.MaskedSoftmax

/-! ## The layout and reduction steps, at an entry -/

/-- The lane counter reads the lane. -/
theorem iota_lane (hI : S256x4096.Iotas .tc 32 [1]) (p : Fin 256) (l : Fin 4096) :
    iota .tc S256x4096 32 [1] hI (ix2 p l) = BitVec.ofNat 32 l.val :=
  iota_single_apply .tc S256x4096 32 1 hI (ix2 p l)

/-- A vector of 256 values viewed as a column and repeated along the rows reads, at `(p, l)`, the value of row `p`. -/
theorem column_apply {α : Type} (w : S256.Idx → α) (hc : S256.ShapeCasts S256x1) (hb : S256x1.Broadcasts S256x4096)
    (p : Fin 256) (l : Fin 4096) :
    broadcastTo S256x4096 (shapeCast S256x1 w hc) hb (ix2 p l) = w (ix1 p) :=
  (Cert.LibLayout.broadcastTo_a1_ab_apply _ hb p l).trans (Cert.LibLayout.shapeCast_a_a1_apply w hc p 0)

/-- The lane maximum from -∞ of row `p` is the supremum of the row. -/
theorem laneMax_apply (v : FVec Ideal S256x4096 .f32) (h : S256x4096.Reduces [1] S256) (hφ : FKind.Formats .f32)
    (hacc : (0xFF800000#32 : BitVec 32) = FKind.maximumf.neutral .f32 hφ) (p : Fin 256) :
    multiReduction .maximumf [1] S256 v 0xFF800000#32 h hφ hacc (ix1 p) = ⨆ l : Fin 4096, v (ix2 p l) := by
  refine (Ideal.multiReduction_maximumf_single v 0xFF800000#32 h hφ hacc (ix1 p)).trans ?_
  show (Finset.univ : Finset (Fin 4096)).fold max (Ideal.ofBits .f32 0xFF800000#32) (fun k => v (h.lift (ix1 p) k)) = _
  rw [negInf_word]
  refine (fold_max_bot (L := 4096) fun k => v (h.lift (ix1 p) k)).trans ?_
  refine iSup_congr fun k => congrArg v ?_
  funext a
  match a with
  | ⟨0, _⟩ => rfl
  | ⟨1, _⟩ => rfl

/-- The lane sum of row `p` is the sum over the row. -/
theorem laneSum_apply (v : FVec Ideal S256x4096 .f32) (h : S256x4096.Reduces [1] S256) (hφ : FKind.Formats .f32)
    (hacc : (0x00000000#32 : BitVec 32) = FKind.add.neutral .f32 hφ) (p : Fin 256) :
    multiReduction .add [1] S256 v 0x00000000#32 h hφ hacc (ix1 p) = ∑ l : Fin 4096, v (ix2 p l) := by
  refine (Ideal.multiReduction_add_single v 0x00000000#32 h hφ hacc (ix1 p)).trans ?_
  show ∑ k : Fin 4096, v (h.lift (ix1 p) k) = _
  refine Finset.sum_congr rfl fun k _ => congrArg v ?_
  funext a
  match a with
  | ⟨0, _⟩ => rfl
  | ⟨1, _⟩ => rfl

/-! ## The body's stages -/

/-- The block's selection bits. -/
def bits (v1 : Vec Ideal S256x1 .i32) : IVec S256x4096 1 :=
  cmpi .slt (iota .tc S256x4096 32 [1] iota_S256x4096_d1_w32) (broadcastTo S256x4096 v1 broadcasts_S256x1_S256x4096)

/-- The row maxima of the selected entries, repeated along each row. -/
def maxCol (c : IVec S256x4096 1) (v0 : Vec Ideal S256x4096 .f32) : FVec Ideal S256x4096 .f32 :=
  broadcastTo S256x4096
    (shapeCast S256x1
      (multiReduction .maximumf [1] S256 (select c v0 (broadcast S256x4096 (Scalar.ofBits (F := Ideal) .f32 0xFF800000#32)))
        0xFF800000#32 reduces_S256x4096_S256 (.inl rfl) rfl)
      shapeCasts_S256_S256x1)
    broadcasts_S256x1_S256x4096

/-- The weights. -/
def weights (c : IVec S256x4096 1) (v0 : Vec Ideal S256x4096 .f32) : FVec Ideal S256x4096 .f32 :=
  select c (exp (subf v0 (maxCol c v0))) (broadcast S256x4096 (Scalar.ofBits (F := Ideal) .f32 0x00000000#32))

/-- The row sums of an array, repeated along each row. -/
def sumCol (w : FVec Ideal S256x4096 .f32) : FVec Ideal S256x4096 .f32 :=
  broadcastTo S256x4096
    (shapeCast S256x1 (multiReduction .add [1] S256 w 0x00000000#32 reduces_S256x4096_S256 (.inl rfl) rfl) shapeCasts_S256_S256x1)
    broadcasts_S256x1_S256x4096

/-- The stored value is the weights over their row sums. -/
theorem payload_eq (v0 : Vec Ideal S256x4096 .f32) (v1 : Vec Ideal S256x1 .i32) :
    k0_pay1 (F := Ideal) v0 v1 = divf (weights (bits v1) v0) (sumCol (weights (bits v1) v0)) := rfl

/-! ## The stages at an entry -/

theorem bits_apply (v1 : Vec Ideal S256x1 .i32) (p : Fin 256) (l : Fin 4096) :
    bits v1 (ix2 p l) = Cert.Spec.bit (v1 (ix2 p (0 : Fin 1))) l := by
  show IntOp.cmpi .slt (iota .tc S256x4096 32 [1] iota_S256x4096_d1_w32 (ix2 p l))
      (broadcastTo S256x4096 v1 broadcasts_S256x1_S256x4096 (ix2 p l)) = _
  rw [iota_lane, Cert.LibLayout.broadcastTo_a1_ab_apply]
  rfl

theorem maxCol_apply (c : IVec S256x4096 1) (v0 : Vec Ideal S256x4096 .f32) (p : Fin 256) (l : Fin 4096) :
    maxCol c v0 (ix2 p l) = rowMax (fun k => c (ix2 p k)) (fun k => v0 (ix2 p k)) := by
  unfold maxCol
  refine (column_apply _ _ _ p l).trans ?_
  refine (laneMax_apply _ _ _ _ p).trans ?_
  refine iSup_congr fun k => ?_
  show Scalar.select (c (ix2 p k)) (v0 (ix2 p k)) (Ideal.ofBits .f32 0xFF800000#32) = _
  rw [negInf_word]
  rfl

theorem weights_apply (c : IVec S256x4096 1) (v0 : Vec Ideal S256x4096 .f32) (p : Fin 256) (l : Fin 4096) :
    weights c v0 (ix2 p l) = weight (fun k => c (ix2 p k)) (fun k => v0 (ix2 p k)) l := by
  show Scalar.select (c (ix2 p l)) (Ideal.exp (v0 (ix2 p l) - maxCol c v0 (ix2 p l))) (Ideal.ofBits .f32 0x00000000#32) = _
  rw [maxCol_apply, Ideal.ofBits_zero_f32]
  rfl

theorem sumCol_apply (w : FVec Ideal S256x4096 .f32) (p : Fin 256) (l : Fin 4096) :
    sumCol w (ix2 p l) = ∑ k : Fin 4096, w (ix2 p k) := by
  unfold sumCol
  exact (column_apply _ _ _ p l).trans (laneSum_apply _ _ _ _ p)

/-- THE BODY AT AN ENTRY: the masked softmax of the block's row `p` under that row's length word, at lane `l`. -/
theorem payload_apply (v0 : Vec Ideal S256x4096 .f32) (v1 : Vec Ideal S256x1 .i32) (p : Fin 256) (l : Fin 4096) :
    k0_pay1 (F := Ideal) v0 v1 (ix2 p l)
      = softmax (Cert.Spec.bit (v1 (ix2 p (0 : Fin 1)))) (fun k => v0 (ix2 p k)) l := by
  rw [payload_eq]
  show Ideal.div (weights (bits v1) v0 (ix2 p l)) (sumCol (weights (bits v1) v0) (ix2 p l)) = _
  rw [sumCol_apply, weights_apply]
  simp only [weights_apply, bits_apply]
  rfl

end Cert.KernelIdeal.RowValue

end
-- ==== Proof.KernelArray.lean ====
/-
  From the blocks to the whole array.

  The grid has 32 points; point `t` stages rows `256·t … 256·t + 255` of `X`, the same rows of the length column, and
  writes back the same rows of the result. Since an entry of the body's result depends only on its own row of the block
  and that row's length word, what point `t` writes back is exactly block `t` of the whole-array function `Spec.G` of the
  two argument arrays; the 32 blocks tile the result array (row `r` lies in block `r / 256`), so after the run the array
  holds `Spec.G` everywhere.
-/
import proofs.«166033_j81604378624394_2_alg».proof.Proof.Gen.KernelIdeal.Value
import proofs.«166033_j81604378624394_2_alg».proof.Proof.KernelRow
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- One block against the whole arrays: if the block `x0` holds rows `256·b + p` of `X` and `x1` the length words of those
    rows, the body's result at `j = (p, l)` is `Spec.G X N` at `(256·b + p, l)`. -/
theorem block_entry (X : Cert.Spec.SX.Idx → EReal) (N : Cert.Spec.SN.Idx → BitVec 32)
    (x0 : Vec Ideal S256x4096 .f32) (x1 : Vec Ideal S256x1 .i32) (b : Nat)
    (h0 : ∀ (p : Fin 256) (k : Fin 4096) (q : Fin 8192), q.val = b * 256 + p.val → x0 (ix2 p k) = X (ix2 q k))
    (h1 : ∀ (p : Fin 256) (q : Fin 8192), q.val = b * 256 + p.val → x1 (ix2 p (0 : Fin 1)) = N (ix2 q (0 : Fin 1)))
    (j : S256x4096.Idx) (i : Cert.Spec.SX.Idx) (hi0 : (i 0).val = b * 256 + (j 0).val) (hi1 : (i 1).val = (j 1).val) :
    k0_pay1 (F := Ideal) x0 x1 j = Cert.Spec.G X N i := by
  obtain ⟨p, l, rfl⟩ : ∃ (p : Fin 256) (l : Fin 4096), j = ix2 p l := ⟨j 0, j 1, eq_ix2 j⟩
  obtain ⟨q, l', rfl⟩ : ∃ (q : Fin 8192) (l' : Fin 4096), i = ix2 q l' := ⟨i 0, i 1, eq_ix2 i⟩
  have hl : l' = l := Fin.ext hi1
  subst hl
  have hq : q.val = b * 256 + p.val := hi0
  have hx : (fun k => x0 (ix2 p k)) = fun k => X (ix2 q k) := funext fun k => h0 p k q hq
  rw [Cert.KernelIdeal.RowValue.payload_apply, Cert.Spec.G_ix2]
  unfold Cert.Spec.entry
  rw [h1 p q hq, hx]

/-- The printed index maps, decided over the 32 grid points: every window sits at block row `t`, block column 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `Spec.G` of the argument arrays as the region finds them. -/
theorem flushed_eq (c : Dev nD) (t : Fin cfg0.N) :
    (dats m 0 c).flushed 2 t
      = ((cfg0.win 2).blk t).view.read (Elt Ideal) (Cert.Spec.G (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S256x4096) zero_offsets, View.ld_unit_zero (S := S256x1) zero_offsets]
  obtain ⟨e0, e1, e2, e3, e4, e5⟩ := index_facts t
  funext j
  show k0_pay1 (F := Ideal) (iblk m c 0 t) (iblk m c 1 t) j
    = Cert.Spec.G (V m c main_arg0) (V m c main_arg1) (((cfg0.win 2).blk t).view.emb j)
  refine block_entry (V m c main_arg0) (V m c main_arg1) (iblk m c 0 t) (iblk m c 1 t) t.val ?_ ?_ j _ ?_ ?_
  · intro p k q hq
    show V m c main_arg0 (((cfg0.win 0).blk t).view.emb (ix2 p k)) = V m c main_arg0 (ix2 q k)
    refine congrArg _ (funext fun a => Fin.ext ?_)
    match a with
    | ⟨0, _⟩ => show win0_0.index t (0 : Fin 2) * 256 + 1 * p.val = q.val; omega
    | ⟨1, _⟩ => show win0_0.index t (1 : Fin 2) * 4096 + 1 * k.val = k.val; omega
  · intro p q hq
    show V m c main_arg1 (((cfg0.win 1).blk t).view.emb (ix2 p (0 : Fin 1))) = V m c main_arg1 (ix2 q (0 : Fin 1))
    refine congrArg _ (funext fun a => Fin.ext ?_)
    match a with
    | ⟨0, _⟩ => show win0_1.index t (0 : Fin 2) * 256 + 1 * p.val = q.val; omega
    | ⟨1, _⟩ => show win0_1.index t (1 : Fin 2) * 1 + 1 * 0 = 0; omega
  · show win0_2.index t (0 : Fin 2) * 256 + 1 * (j 0).val = t.val * 256 + (j 0).val
    omega
  · show win0_2.index t (1 : Fin 2) * 4096 + 1 * (j 1).val = (j 1).val
    omega

/-- An index of the array is in point `t`'s block iff each coordinate is in the block's range on its axis. -/
theorem mem_blk (t : Fin cfg0.N) (i : S8192x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v0).slice (win0_2.rect t)).set ↔ _
  rw [View.set_slice_whole, Rect.mem_set_unit]
  exact Iff.rfl

/-- The blocks tile the array: row `r` lies in the block of point `r / 256`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hlt : (i 0).val / 256 < cfg0.N := by rw [show cfg0.N = 32 from N_0]; omega
  obtain ⟨e0, e1, e2, e3, e4, e5⟩ := index_facts ⟨(i 0).val / 256, hlt⟩
  have e4' : win0_2.index ⟨(i 0).val / 256, hlt⟩ (0 : Fin 2) = (i 0).val / 256 := e4
  refine ⟨⟨(i 0).val / 256, hlt⟩, flush0_2 _, ?_⟩
  rw [mem_blk]
  intro a
  match a with
  | ⟨0, _⟩ =>
    show win0_2.index ⟨(i 0).val / 256, hlt⟩ (0 : Fin 2) * 256 ≤ (i 0).val
      ∧ (i 0).val < win0_2.index ⟨(i 0).val / 256, hlt⟩ (0 : Fin 2) * 256 + 256
    omega
  | ⟨1, _⟩ =>
    show win0_2.index ⟨(i 0).val / 256, hlt⟩ (1 : Fin 2) * 4096 ≤ (i 1).val
      ∧ (i 1).val < win0_2.index ⟨(i 0).val / 256, hlt⟩ (1 : Fin 2) * 4096 + 4096
    omega

/-- THE ARRAY after the run: `Spec.G` of the two argument arrays. -/
theorem final (c : Dev nD) :
    (dats m 0 c).arrAt 2 cfg0.N
      = Cert.Spec.G (m ((c : Thread nD τ).loc main_arg0)) (m ((c : Thread nD τ).loc main_arg1)) :=
  (dats m 0 c).arrAt_eq_of_cover 2 (Cert.Spec.G (V m c main_arg0) (V m c main_arg1)) (fun t _ => flushed_eq m c t) cover

/-- The kernel's run with the result array at `Spec.G` of the arguments, the arguments unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.ArrayValue

end
-- ==== Proof.RefRow.lean ====
/-
  The reference program's result, entry by entry.

  The reference builds the selection as a 0/1 array (the bits of "lane number below the row's length word", converted to
  numbers), selects by "that number is positive" for the row maxima, multiplies the exponentials by the 0/1 array for the
  weights, sums the weights along each row and divides. Stage by stage, at the entry `(r, l)`: the number is 1 or 0 with
  the bit; "positive" gives the bit back; the maximum from -∞ over the row is the supremum of the selected entries; the
  product with the 0/1 number is the weight (whatever the exponential is, +∞ included, since `0 · (+∞) = 0`); the host's
  sum from 0 is the sum of the weights; so the result is the masked softmax of row `r` at lane `l`.
-/
import proofs.«166033_j81604378624394_2_alg».proof.Proof.ReadPatched
import proofs.«166033_j81604378624394_2_alg».proof.Proof.Spec
import Idealize.ShloMosaic.PureOps.Ideal.Laws
import Idealize.ShloMosaic.Lib.ValueIdx

noncomputable section

namespace Cert.ReferenceIdeal.RowValue

open Cert.ReferenceIdeal Cert.ReferenceIdeal.Gen Cert.ReferenceIdeal.ReadP
open Idealize.ShloMosaic Idealize.ShloMosaic.ValueIdx Cert.MaskedSoftmax

variable (X : (⟨S8192x4096, .f32⟩ : BufTy).Contents (Elt Ideal)) (N : (⟨S8192x1, .i32⟩ : BufTy).Contents (Elt Ideal))

/-! ## Where each layout operation reads -/

theorem at3 (r : Fin 8192) (l : Fin 4096) : idx_main_v3 (ix2 r l) = ix2 r (0 : Fin 1) :=
  funext fun a => Fin.ext (by match a with | ⟨0, _⟩ => rfl | ⟨1, _⟩ => rfl)
theorem at10 (r : Fin 8192) : idx_main_v10 (ix2 r (0 : Fin 1)) = ix1 r :=
  funext fun a => Fin.ext (by match a with | ⟨0, _⟩ => rfl)
theorem at11 (r : Fin 8192) (l : Fin 4096) : idx_main_v11 (ix2 r l) = ix2 r (0 : Fin 1) :=
  funext fun a => Fin.ext (by match a with | ⟨0, _⟩ => rfl | ⟨1, _⟩ => rfl)
theorem at15 (r : Fin 8192) (k : Fin 4096) : idx_main_v15 (ix1 r) k = ix2 r k :=
  funext fun a => Fin.ext (by match a with | ⟨0, _⟩ => rfl | ⟨1, _⟩ => rfl)
theorem at16 (r : Fin 8192) : idx_main_v16 (ix2 r (0 : Fin 1)) = ix1 r :=
  funext fun a => Fin.ext (by match a with | ⟨0, _⟩ => rfl)
theorem at18 (r : Fin 8192) (l : Fin 4096) : idx_main_v18 (ix2 r l) = ix2 r (0 : Fin 1) :=
  funext fun a => Fin.ext (by match a with | ⟨0, _⟩ => rfl | ⟨1, _⟩ => rfl)

/-! ## The selection -/

/-- The compared words at `(r, l)`: the lane number against the row's length word. -/
theorem mask_apply (r : Fin 8192) (l : Fin 4096) :
    val_main_v4 (F := Ideal) N (ix2 r l) = Cert.Spec.bit (N (ix2 r (0 : Fin 1))) l := by
  rw [val_main_v4_apply, val_main_v2_apply, val_main_v1_apply, val_main_v0_apply, val_main_v3_apply, at3]
  rfl

/-- The 0/1 number. -/
theorem num_apply (r : Fin 8192) (l : Fin 4096) :
    val_main_v5 (F := Ideal) N (ix2 r l) = if Cert.Spec.bit (N (ix2 r (0 : Fin 1))) l = 1#1 then (1 : EReal) else 0 := by
  rw [val_main_v5_apply, mask_apply]
  exact bitNum _

/-- "The number is positive" is the bit again. -/
theorem sel_apply (r : Fin 8192) (l : Fin 4096) :
    val_main_v7 (F := Ideal) N (ix2 r l) = Cert.Spec.bit (N (ix2 r (0 : Fin 1))) l := by
  rw [val_main_v7_apply, val_main_v5_apply, mask_apply, val_main_v6_apply, val_main_cst_apply]
  exact bitNum_pos _

/-! ## The row maximum -/

theorem masked_apply (r : Fin 8192) (l : Fin 4096) :
    val_main_v8 (F := Ideal) X N (ix2 r l)
      = if Cert.Spec.bit (N (ix2 r (0 : Fin 1))) l = 1#1 then X (ix2 r l) else ⊥ := by
  rw [val_main_v8_apply, sel_apply, val_main_call0_v0_apply, val_main_cst_0_apply]
  show Scalar.select _ _ (Ideal.ofBits .f32 0xFF800000#32) = _
  rw [negInf_word]
  rfl

theorem max_apply (r : Fin 8192) :
    val_main_v9 (F := Ideal) X N (ix1 r) = rowMax (Cert.Spec.bit (N (ix2 r (0 : Fin 1)))) (fun k => X (ix2 r k)) := by
  have h : S8192x4096.Reduces [1] S8192 := by decide
  unfold val_main_v9
  refine (Host.reduce_eq_fold_single FloatOps.maximumf _ _ reducesTo_S8192x4096_S8192_d1 h h_S_ (ix1 r)).trans ?_
  show (Finset.univ : Finset (Fin 4096)).fold max (Ideal.ofBits .f32 0xFF800000#32)
      (fun k => val_main_v8 (F := Ideal) X N (h.lift (ix1 r) k)) = _
  rw [negInf_word]
  refine (fold_max_bot (L := 4096) fun k => val_main_v8 (F := Ideal) X N (h.lift (ix1 r) k)).trans ?_
  refine iSup_congr fun k => ?_
  have e : h.lift (ix1 r) k = ix2 r k := by
    funext a
    match a with
    | ⟨0, _⟩ => rfl
    | ⟨1, _⟩ => rfl
  rw [e, masked_apply]

theorem maxB_apply (r : Fin 8192) (l : Fin 4096) :
    val_main_v11 (F := Ideal) X N (ix2 r l) = rowMax (Cert.Spec.bit (N (ix2 r (0 : Fin 1)))) (fun k => X (ix2 r k)) := by
  rw [val_main_v11_apply, at11, val_main_v10_apply, at10, max_apply]

/-! ## The weights, their sum, the quotient -/

theorem exp_apply (r : Fin 8192) (l : Fin 4096) :
    val_main_v13 (F := Ideal) X N (ix2 r l)
      = Ideal.exp (X (ix2 r l) - rowMax (Cert.Spec.bit (N (ix2 r (0 : Fin 1)))) (fun k => X (ix2 r k))) := by
  rw [val_main_v13_apply, val_main_v12_apply, maxB_apply]
  rfl

/-- The exponential times the 0/1 number is the weight. -/
theorem w14_apply (r : Fin 8192) (l : Fin 4096) :
    val_main_v14 (F := Ideal) X N (ix2 r l) = weight (Cert.Spec.bit (N (ix2 r (0 : Fin 1)))) (fun k => X (ix2 r k)) l := by
  rw [val_main_v14_apply, exp_apply, num_apply]
  exact (mul_bitNum _ _).trans rfl

/-- And so is the 0/1 number times the exponential. -/
theorem w17_apply (r : Fin 8192) (l : Fin 4096) :
    val_main_v17 (F := Ideal) X N (ix2 r l) = weight (Cert.Spec.bit (N (ix2 r (0 : Fin 1)))) (fun k => X (ix2 r k)) l := by
  rw [val_main_v17_apply, exp_apply, num_apply]
  exact (bitNum_mul _ _).trans rfl

theorem sum_apply (r : Fin 8192) :
    val_main_v15 (F := Ideal) X N (ix1 r)
      = ∑ k : Fin 4096, weight (Cert.Spec.bit (N (ix2 r (0 : Fin 1)))) (fun k => X (ix2 r k)) k := by
  rw [val_main_v15_apply, val_main_cst_2_apply]
  show Ideal.ofBits .f32 0x00000000#32 + _ = _
  rw [Ideal.ofBits_zero_f32, zero_add]
  refine Finset.sum_congr rfl fun k _ => ?_
  rw [at15, w14_apply]

theorem sumB_apply (r : Fin 8192) (l : Fin 4096) :
    val_main_v18 (F := Ideal) X N (ix2 r l)
      = ∑ k : Fin 4096, weight (Cert.Spec.bit (N (ix2 r (0 : Fin 1)))) (fun k => X (ix2 r k)) k := by
  rw [val_main_v18_apply, at18, val_main_v16_apply, at16, sum_apply]

/-- THE REFERENCE AT AN ENTRY. -/
theorem result_apply (r : Fin 8192) (l : Fin 4096) :
    val_main_v19 (F := Ideal) X N (ix2 r l) = Cert.Spec.entry X N r l := by
  rw [val_main_v19_apply, w17_apply, sumB_apply]
  rfl

/-- THE REFERENCE'S RESULT ARRAY is the specification's. -/
theorem result_eq : val_main_v19 (F := Ideal) X N = Cert.Spec.G X N := by
  funext i
  obtain ⟨r, l, rfl⟩ : ∃ (r : Fin 8192) (l : Fin 4096), i = ix2 r l := ⟨i 0, i 1, eq_ix2 i⟩
  rw [result_apply, Cert.Spec.G_ix2]

end Cert.ReferenceIdeal.RowValue

end
-- ==== Proof.lean ====
/-
  A masked softmax over rows of variable length: the kernel against its reference, on the extended reals.

  `X` is an 8192 × 4096 array and `N` a column of 8192 length words; lane `l` of row `r` is selected when `l < N r` as signed
  32-bit integers. Both programs compute, for each row, the maximum of the selected entries (from -∞), the weights
  `exp (x - maximum)` on the selected entries and 0 on the others, and each weight over the row's sum of weights
  (`Spec.G`, built on `MaskedSoftmax.softmax`).

  The kernel works on 32 blocks of 256 whole rows. Inside a block an entry of the result depends only on its own row and
  that row's length word (`RowValue.payload_apply`), so the blocks written back are the blocks of one whole-array function and
  they tile the result (`ArrayValue.final`). The reference spells the selection as a 0/1 array: it selects for the maximum by
  "the number is positive" and zeroes the unselected weights by multiplying with the number. On the extended reals both
  spellings give the same value for EVERY input, a row with nothing selected included: there the maximum is -∞, the
  exponentials are +∞, and `0 · (+∞) = 0` makes the product 0 exactly as the kernel's choice of 0 does
  (`MaskedSoftmax.mul_bitNum`); both programs then divide 0 by the same zero sum. So the two results are one function of
  the arguments and no finiteness of the inputs is used.

  The three frames are the generated frame runs; the idealization rewrote nothing, so `preserves` is `True`.
-/
import proofs.«166033_j81604378624394_2_alg».proof.Defs
import proofs.«166033_j81604378624394_2_alg».proof.Proof.Gen.Kernel
import proofs.«166033_j81604378624394_2_alg».proof.Proof.Gen.Kernel.Skeleton
import proofs.«166033_j81604378624394_2_alg».proof.Proof.Gen.Kernel.Launch
import proofs.«166033_j81604378624394_2_alg».proof.Proof.Gen.Kernel.Points
import proofs.«166033_j81604378624394_2_alg».proof.Proof.Gen.Kernel.Frame
import proofs.«166033_j81604378624394_2_alg».proof.Proof.Gen.KernelIdeal
import proofs.«166033_j81604378624394_2_alg».proof.Proof.Gen.KernelIdeal.Skeleton
import proofs.«166033_j81604378624394_2_alg».proof.Proof.Gen.KernelIdeal.Launch
import proofs.«166033_j81604378624394_2_alg».proof.Proof.Gen.KernelIdeal.Points
import proofs.«166033_j81604378624394_2_alg».proof.Proof.Gen.KernelIdeal.Frame
import proofs.«166033_j81604378624394_2_alg».proof.Proof.Gen.ReferenceIdeal
import proofs.«166033_j81604378624394_2_alg».proof.Proof.Gen.Pre_finite_inputs
import proofs.«166033_j81604378624394_2_alg».proof.Proof.Gen.KernelIdeal.Value
import proofs.«166033_j81604378624394_2_alg».proof.Proof.RunPatched
import proofs.«166033_j81604378624394_2_alg».proof.Proof.ReadPatched
import proofs.«166033_j81604378624394_2_alg».proof.Proof.KernelArray
import proofs.«166033_j81604378624394_2_alg».proof.Proof.RefRow
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end with the result array at `Spec.G` of the two argument arrays, and the argument arrays agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v19_eq _ _).trans ?_
  rw [Cert.ReferenceIdeal.RowValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
